-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S256x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S10000x256 : Shape := ⟨2, ![10000, 256]⟩
abbrev S200x256 : Shape := ⟨2, ![200, 256]⟩
abbrev S200x1 : Shape := ⟨2, ![200, 1]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S256x128, .f32⟩
  | .local _ .vmem, ⟨5, _⟩ => ⟨S1x128, .f32⟩
  | .local _ .vmem, ⟨6, _⟩ => ⟨S200x128, .f32⟩
  | .local _ .vmem, ⟨7, _⟩ => ⟨S200x128, .f32⟩
  | .local _ .vmem, ⟨8, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v16 : BitVec 32 := Scalar.muli arg0 c200_i32
  let v17 : Index := Scalar.indexCast v16
  let c0_7 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  iota_S10000x128_d1_w32 : S10000x128.Iotas .tc 32 [1]
  natLt_1_32 : 1 < 32
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  slices_S200x256_o0_0_S200x128 : S200x256.Slices ![0, 0] S200x128
  slices_S200x256_o0_128_S200x1 : S200x256.Slices ![0, 128] S200x1
  broadcasts_S200x1_S200x128 : S200x1.Broadcasts S200x128
  h_S200x128 : 0 < S200x128.numel
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x256_S200x256_1_0_0_1_n_n_wf : DotDims.WF S200x10000 S10000x256 S200x256 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S256x128 : Shape := ⟨2, ![256, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S10000x128, .f32⟩
  | .hbm, ⟨6, _⟩ => ⟨S_, .f32⟩
  | .hbm, ⟨7, _⟩ => ⟨S10000, .f32⟩
  | .hbm, ⟨8, _⟩ => ⟨S_, .f32⟩
  | .hbm, ⟨9, _⟩ => ⟨S10000, .f32⟩
  | .hbm, ⟨10, _⟩ => ⟨S10000, .f32⟩
  | .hbm, ⟨11, _⟩ => ⟨S10000, .f32⟩
  | .hbm, ⟨12, _⟩ => ⟨S_, .f32⟩
  | .hbm, ⟨13, _⟩ => ⟨S10000, .f32⟩
  | .hbm, ⟨14, _⟩ => ⟨S10000, .i1⟩
  | .hbm, ⟨15, _⟩ => ⟨S_, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x10000, .f32⟩
  | .hbm, ⟨21, _⟩ => ⟨S10000x10000, .f32⟩
  | .hbm, ⟨22, _⟩ => ⟨S10000x128, .f32⟩
  | .hbm, ⟨23, _⟩ => ⟨S10000x256, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v4 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_cst : Ref sig .tc := ⟨.hbm, 28, rfl⟩
abbrev main_call2_v0 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Pieces.lean ====
/-
  What one run of the kernel body leaves behind, as values of what it loaded.
  At the first grid point the body fills the carried scratch with the augmented feature table (the product of the
  node features with the transform weights, a column of ones to its right, zeros after it) and then computes its
  output block from that table; at every later point it leaves the scratch as it found it and computes the output
  block from what the scratch already holds.  In both cases the output block is one function of the adjacency row
  band, the table, the matching rows of the node features, the update weights and the bias row.
-/
import proofs.«170650_g50491635532113_cont_8to1_c_204_9_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem zeroOffsets : (![0, 0] : Fin 2 → Nat) = fun _ => 0 := funext fun a => by fin_cases a <;> rfl

/-- The 200 rows of the node features that belong to the grid point `i`: rows `200 i` to `200 i + 199`. -/
abbrev band (i : grid0.Coords) (x1 : Vec F S10000x128 .f32) : Vec F S200x128 .f32 :=
  View.ld x1 (Rect.unit (s := S10000x128) (k0_off1 i) S200x128.size (k0_off1_inb i))

/-- A later point: the output block from the table the scratch holds. -/
theorem out_later (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .f32) (h3 : a3.IsWhole) (a4 : Memref sig .tc .vmem S256x128 .f32) (h4 : a4.IsWhole) (a5 : Memref sig .tc .vmem S1x128 .f32) (h5 : a5.IsWhole) (a6 : Memref sig .tc .vmem S200x128 .f32) (h6 : a6.IsWhole) (a7 : Memref sig .tc .vmem S10000x256 .f32) (h7 : a7.IsWhole) (hc : ¬cond0_0 i)
    (x0 : Vec F S200x10000 .f32) (x1 : Vec F S10000x128 .f32) (x2 : Vec F S128x128 .f32) (x3 : Vec F S256x128 .f32) (x4 : Vec F S1x128 .f32) (xs0 : Vec F S10000x256 .f32) :
    out0_B_5 c i a1 h1 a2 h2 a3 h3 a4 h4 a5 h5 a6 h6 a7 h7 hc x0 x1 x2 x3 x4 xs0 = k0_pay2 x0 xs0 (band i x1) x3 x4 := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  rw [View.canon_unit_zero zeroOffsets]
  simp only [View.readAt_eq_ld, h1.read_unread, h2.read_unread, h4.read_unread, h5.read_unread, h7.read_unread,
    View.ld_unit_zero (S := S200x10000) zeroOffsets, View.ld_unit_zero (S := S10000x256) zeroOffsets,
    View.ld_unit_zero (S := S256x128) zeroOffsets, View.ld_unit_zero (S := S1x128) zeroOffsets]

/-- The first point: the scratch ends holding the augmented table of the node features and the transform weights. -/
theorem scratch_first (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .f32) (h3 : a3.IsWhole) (a4 : Memref sig .tc .vmem S256x128 .f32) (h4 : a4.IsWhole) (a5 : Memref sig .tc .vmem S1x128 .f32) (h5 : a5.IsWhole) (a6 : Memref sig .tc .vmem S200x128 .f32) (h6 : a6.IsWhole) (a7 : Memref sig .tc .vmem S10000x256 .f32) (h7 : a7.IsWhole) (hc : cond0_0 i)
    (x0 : Vec F S200x10000 .f32) (x1 : Vec F S10000x128 .f32) (x2 : Vec F S128x128 .f32) (x3 : Vec F S256x128 .f32) (x4 : Vec F S1x128 .f32) :
    sout0_A_0 c i a1 h1 a2 h2 a3 h3 a4 h4 a5 h5 a6 h6 a7 h7 hc x0 x1 x2 x3 x4 = k0_pay1 x1 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero zeroOffsets]
  simp only [View.readAt_eq_ld, h2.read_unread, h3.read_unread,
    View.ld_unit_zero (S := S10000x128) zeroOffsets, View.ld_unit_zero (S := S128x128) zeroOffsets]

/-- The first point: the output block from the table just stored. -/
theorem out_first (c : Dev nD) (i : grid0.Coords) (a1 : Memref sig .tc .vmem S200x10000 .f32) (h1 : a1.IsWhole) (a2 : Memref sig .tc .vmem S10000x128 .f32) (h2 : a2.IsWhole) (a3 : Memref sig .tc .vmem S128x128 .f32) (h3 : a3.IsWhole) (a4 : Memref sig .tc .vmem S256x128 .f32) (h4 : a4.IsWhole) (a5 : Memref sig .tc .vmem S1x128 .f32) (h5 : a5.IsWhole) (a6 : Memref sig .tc .vmem S200x128 .f32) (h6 : a6.IsWhole) (a7 : Memref sig .tc .vmem S10000x256 .f32) (h7 : a7.IsWhole) (hc : cond0_0 i)
    (x0 : Vec F S200x10000 .f32) (x1 : Vec F S10000x128 .f32) (x2 : Vec F S128x128 .f32) (x3 : Vec F S256x128 .f32) (x4 : Vec F S1x128 .f32) :
    out0_A_5 c i a1 h1 a2 h2 a3 h3 a4 h4 a5 h5 a6 h6 a7 h7 hc x0 x1 x2 x3 x4 = k0_pay2 x0 (k0_pay1 x1 x2) (band i x1) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero zeroOffsets]
  simp only [View.readCov_unit_zero (S := S10000x256) _ zeroOffsets, View.readAt_eq_ld, h1.read_unread, h2.read_unread, h3.read_unread, h4.read_unread, h5.read_unread,
    View.ld_unit_zero (S := S200x10000) zeroOffsets, View.ld_unit_zero (S := S10000x128) zeroOffsets, View.ld_unit_zero (S := S128x128) zeroOffsets,
    View.ld_unit_zero (S := S256x128) zeroOffsets, View.ld_unit_zero (S := S1x128) zeroOffsets]
  rfl

end Cert.KernelIdeal.Pieces

end
-- ==== Proof.Spec.lean ====
/-
  The layer as one function of its five argument arrays, entry by entry, on the extended reals.
  With the transformed features  feat j k = Σ_l X j l · Wt l k,  the degree  deg r = Σ_j A r j,  its reciprocal
  taken as zero where the degree is zero, and the aggregate  agg r k = Σ_j A r j · feat j k,
    out r u = max (Σ_k X r k · Wu k u + Σ_k (agg r k · recip (deg r)) · Wu (128 + k) u + b u) 0.
-/
import Idealize.ShloMosaic.PureOps.Ideal
import Idealize.ShloMosaic.Lib.ValueIdx

noncomputable section

open scoped BigOperators

namespace Cert.Layer

open Idealize.ShloMosaic Idealize.ShloMosaic.ValueIdx

/-- An a × b array of extended reals. -/
abbrev Arr2 (a b : ℕ) : Type := (⟨2, ![a, b]⟩ : Shape).Idx → EReal
/-- A vector of a extended reals. -/
abbrev Arr1 (a : ℕ) : Type := (⟨1, ![a]⟩ : Shape).Idx → EReal

/-- Row `k` of the upper half of the update weights; column `k` of the left half of a 256-wide row. -/
abbrev lo (k : Fin 128) : Fin 256 := ⟨k.val, by omega⟩
/-- Row `128 + k` of the update weights; column `128 + k` of a 256-wide row. -/
abbrev hi (k : Fin 128) : Fin 256 := ⟨128 + k.val, by omega⟩

/-- The transformed features. -/
def feat (X : Arr2 10000 128) (Wt : Arr2 128 128) (j : Fin 10000) (k : Fin 128) : EReal :=
  ∑ l : Fin 128, X (ix2 j l) * Wt (ix2 l k)

/-- A node's degree: the sum of its adjacency row. -/
def deg (A : Arr2 10000 10000) (r : Fin 10000) : EReal := ∑ j : Fin 10000, A (ix2 r j)

/-- The reciprocal, with zero sent to zero. -/
def recip (d : EReal) : EReal := if d = 0 then 0 else d⁻¹

/-- The neighbours' transformed features, weighted by the adjacency row. -/
def agg (X : Arr2 10000 128) (A : Arr2 10000 10000) (Wt : Arr2 128 128) (r : Fin 10000) (k : Fin 128) : EReal :=
  ∑ j : Fin 10000, A (ix2 r j) * feat X Wt j k

/-- One entry of the layer's result. -/
def out (X : Arr2 10000 128) (A : Arr2 10000 10000) (Wt : Arr2 128 128) (Wu : Arr2 256 128) (b : Arr1 128)
    (r : Fin 10000) (u : Fin 128) : EReal :=
  max ((∑ k : Fin 128, X (ix2 r k) * Wu (ix2 (lo k) u)
        + ∑ k : Fin 128, (agg X A Wt r k * recip (deg A r)) * Wu (ix2 (hi k) u)) + b (ix1 u)) 0

/-- The layer's result array. -/
def G (X : Arr2 10000 128) (A : Arr2 10000 10000) (Wt : Arr2 128 128) (Wu : Arr2 256 128) (b : Arr1 128) : Arr2 10000 128 :=
  fun i => out X A Wt Wu b (i 0) (i 1)

theorem G_apply (X : Arr2 10000 128) (A : Arr2 10000 10000) (Wt : Arr2 128 128) (Wu : Arr2 256 128) (b : Arr1 128)
    (r : Fin 10000) (u : Fin 128) : G X A Wt Wu b (ix2 r u) = out X A Wt Wu b r u := rfl

end Cert.Layer

end
-- ==== Proof.LibPlainProduct.lean ====
/-
  A block product of an a × K by a K × b array into the zero accumulator, one axis contracted, read at the entry
  (p, u) on the extended reals: the finite sum over k of lhs (p, k) · rhs (k, u).  The dimension record enters only
  through four facts about where it sends an output index and a contraction index; nothing here knows a program.
-/
import Idealize.ShloMosaic.Lib.ValueIdx
import Idealize.ShloMosaic.PureOps.Ideal.Laws

noncomputable section

open scoped BigOperators

namespace Cert.PlainProduct

open Idealize.ShloMosaic Idealize.ShloMosaic.ValueIdx

/-- With rows of the left operand following the output's rows, columns of the right operand following the output's
    columns, and the one contracted coordinate running along the left operand's columns and the right operand's
    rows, the product's entry (p, u) is the sum over that coordinate of the operands' products. -/
theorem matmul_zero_apply {a K b : ℕ} (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ .f32) (rhs : FVec Ideal ⟨2, ![K, b]⟩ .f32) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p u) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p u) ((contrEquiv1 D K hr hs).symm k) = ix2 k u := funext fun ax => Fin.ext (by
    match ax with
    | ⟨0, _⟩ => exact (hr0 _ _).trans hk
    | ⟨1, _⟩ => exact hr1 _ _)
  rw [el, er]

end Cert.PlainProduct

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.Payload.lean ====
/-
  The two values the kernel body stores, read at an entry on the extended reals.
  The feature table: columns 0 to 127 hold the product of the node features with the transform weights, column 128
  holds ones.  The output block: with res = (adjacency band) · (table), the first 128 columns of res are the
  aggregated features and column 128 is the row's degree; the aggregated features are scaled by the reciprocal of
  the degree (zero where the degree is zero), and the block is max (x · Wu_top + scaled · Wu_bottom + bias, 0).
-/
import proofs.«170650_g50491635532113_cont_8to1_c_204_9_alg».proof.Proof.Gen.KernelIdeal.Skeleton
import proofs.«170650_g50491635532113_cont_8to1_c_204_9_alg».proof.Proof.Spec
import proofs.«170650_g50491635532113_cont_8to1_c_204_9_alg».proof.Proof.LibPlainProduct
import proofs.«170650_g50491635532113_cont_8to1_c_204_9_alg».proof.Proof.LibVecRead
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.VecRead Cert.Layer

/-! ## The three block products -/

theorem band_product (lhs : FVec Ideal S200x10000 .f32) (rhs : FVec Ideal S10000x256 .f32) (p : Fin 200) (l : Fin 256) :
    matmul dot_S200x10000_S10000x256_S200x256_1_0_0_1_n_n none lhs rhs (constant S200x256 .f32 0x00000000#32) (ix2 p l)
      = ∑ j : Fin 10000, lhs (ix2 p j) * rhs (ix2 j l) :=
  Cert.PlainProduct.matmul_zero_apply dot_S200x10000_S10000x256_S200x256_1_0_0_1_n_n none (by rfl) (by rfl)
    (fun j q => by
      unfold DotDims.lhsIdx
      rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
      rfl)
    (fun j q => dot_S200x10000_S10000x256_S200x256_1_0_0_1_n_n.lhsIdx_val_of_single rfl j q)
    (fun j q => dot_S200x10000_S10000x256_S200x256_1_0_0_1_n_n.rhsIdx_val_of_single rfl j q)
    (fun j q => by
      unfold DotDims.rhsIdx
      rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
      rfl) lhs rhs p l

theorem update_product (lhs : FVec Ideal S200x128 .f32) (rhs : FVec Ideal S128x128 .f32) (p : Fin 200) (u : Fin 128) :
    matmul dot_S200x128_S128x128_S200x128_1_0_0_1_n_n none lhs rhs (constant S200x128 .f32 0x00000000#32) (ix2 p u)
      = ∑ k : Fin 128, lhs (ix2 p k) * rhs (ix2 k u) :=
  Cert.PlainProduct.matmul_zero_apply dot_S200x128_S128x128_S200x128_1_0_0_1_n_n none (by rfl) (by rfl)
    (fun j q => by
      unfold DotDims.lhsIdx
      rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
      rfl)
    (fun j q => dot_S200x128_S128x128_S200x128_1_0_0_1_n_n.lhsIdx_val_of_single rfl j q)
    (fun j q => dot_S200x128_S128x128_S200x128_1_0_0_1_n_n.rhsIdx_val_of_single rfl j q)
    (fun j q => by
      unfold DotDims.rhsIdx
      rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
      rfl) lhs rhs p u

theorem transform_product (lhs : FVec Ideal S10000x128 .f32) (rhs : FVec Ideal S128x128 .f32) (j : Fin 10000) (k : Fin 128) :
    matmul dot_S10000x128_S128x128_S10000x128_1_0_0_1_n_n none lhs rhs (constant S10000x128 .f32 0x00000000#32) (ix2 j k)
      = ∑ l : Fin 128, lhs (ix2 j l) * rhs (ix2 l k) :=
  Cert.PlainProduct.matmul_zero_apply dot_S10000x128_S128x128_S10000x128_1_0_0_1_n_n none (by rfl) (by rfl)
    (fun j q => by
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl)
    (fun j q => dot_S10000x128_S128x128_S10000x128_1_0_0_1_n_n.lhsIdx_val_of_single rfl j q)
    (fun j q => dot_S10000x128_S128x128_S10000x128_1_0_0_1_n_n.rhsIdx_val_of_single rfl j q)
    (fun j q => by
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl) lhs rhs j k

/-! ## The slices the body takes -/

/-- The first 128 columns of the band product. -/
theorem slice_features (X : FVec Ideal S200x256 .f32) (h : S200x256.Slices ![0, 0] S200x128) (p : Fin 200) (k : Fin 128) :
    extractStridedSlice S200x128 ![0, 0] X h (ix2 p k) = X (ix2 p (lo k)) :=
  slice2_apply 0 0 X h p k p (lo k) (by simp) (by simp)

/-- Column 128 of the band product, as a column. -/
theorem slice_degree (X : FVec Ideal S200x256 .f32) (h : S200x256.Slices ![0, 128] S200x1) (p : Fin 200) (z : Fin 1) :
    extractStridedSlice S200x1 ![0, 128] X h (ix2 p z) = X (ix2 p (hi 0)) :=
  slice2_apply 0 128 X h p z p (hi 0) (by simp) (by have := z.isLt; show 128 + 0 = 128 + z.val; omega)

/-- The upper half of the update weights. -/
theorem slice_top (W : FVec Ideal S256x128 .f32) (h : S256x128.Slices ![0, 0] S128x128) (k u : Fin 128) :
    extractStridedSlice S128x128 ![0, 0] W h (ix2 k u) = W (ix2 (lo k) u) :=
  slice2_apply 0 0 W h k u (lo k) u (by simp) (by simp)

/-- The lower half of the update weights. -/
theorem slice_bottom (W : FVec Ideal S256x128 .f32) (h : S256x128.Slices ![128, 0] S128x128) (k u : Fin 128) :
    extractStridedSlice S128x128 ![128, 0] W h (ix2 k u) = W (ix2 (hi k) u) :=
  slice2_apply 128 0 W h k u (hi k) u (by simp) (by simp)

/-! ## The feature table -/

/-- Column `k < 128` of row `j` of the table is the transformed feature `Σ_l X j l · Wt l k`. -/
theorem table_features (x : Vec Ideal S10000x128 .f32) (wt : Vec Ideal S128x128 .f32) (j : Fin 10000) (k : Fin 128) :
    k0_pay1 (F := Ideal) x wt (ix2 j (lo k)) = ∑ l : Fin 128, x (ix2 j l) * wt (ix2 l k) := by
  simp only [k0_pay1, shapeCast_self]
  refine (concatenate_pair_apply_left (t := S10000x256) (s₁ := S10000x128) (s₂ := S10000x128) (1 : Fin 2) _ _ _ (ix2 j (lo k)) rfl (ix2 j k) (fun b => ?_)).trans ?_
  · match b with
    | ⟨0, _⟩ => rfl
    | ⟨1, _⟩ => rfl
  · exact transform_product x wt j k

/-- Column 128 of every row of the table is one. -/
theorem table_ones (x : Vec Ideal S10000x128 .f32) (wt : Vec Ideal S128x128 .f32) (j : Fin 10000) :
    k0_pay1 (F := Ideal) x wt (ix2 j (hi 0)) = 1 := by
  simp only [k0_pay1, shapeCast_self]
  refine (concatenate_pair_apply_right (t := S10000x256) (s₁ := S10000x128) (s₂ := S10000x128) (1 : Fin 2) _ _ _ (ix2 j (hi 0)) rfl rfl (ix2 j (0 : Fin 128)) (fun b hb => ?_) rfl).trans ?_
  · match b with
    | ⟨0, _⟩ => rfl
    | ⟨1, _⟩ => exact absurd rfl hb
  · show FloatOps.sitofp (F := Ideal) .f32 ((IntOp.cmpi .eq (iota .tc S10000x128 32 [1] iota_S10000x128_d1_w32 (ix2 j (0 : Fin 128))) (0#32 : BitVec 32)).setWidth 32) = 1
    rw [iota_single_apply]
    show (((BitVec.setWidth 32 (IntOp.cmpi .eq (BitVec.ofNat 32 0) (0#32 : BitVec 32))).toInt : ℝ) : EReal) = 1
    have e : (BitVec.setWidth 32 (IntOp.cmpi .eq (BitVec.ofNat 32 0) (0#32 : BitVec 32))).toInt = 1 := by decide
    rw [e]; norm_num

/-! ## The output block -/

/-- What the body makes of a row's degree: zero if the degree is zero, else one over it. -/
def recipOrZero (d : Ideal .f32) : Ideal .f32 :=
  Scalar.select (FloatOps.cmpf .oeq d (Scalar.ofBits (F := Ideal) .f32 0x00000000#32)) (Scalar.ofBits (F := Ideal) .f32 0x00000000#32)
    (Ideal.div (Scalar.ofBits (F := Ideal) .f32 0x3F800000#32) d)

/-- The float words for zero and one read as the numbers, so the body's reciprocal is the specification's. -/
theorem recipOrZero_eq (d : EReal) : recipOrZero d = recip d := by
  have h1 : Ideal.ofBits .f32 0x3F800000#32 = 1 := by
    simp [Ideal.ofBits, Ideal.ieee]
    first
      | (rw [← EReal.coe_mul]; norm_num)
      | (norm_cast; norm_num)
  show (if Ideal.cmp .oeq d (Ideal.ofBits .f32 0x00000000#32) = 1 then Ideal.ofBits .f32 0x00000000#32
      else Ideal.div (Ideal.ofBits .f32 0x3F800000#32) d) = _
  rw [Ideal.ofBits_zero_f32, h1]
  unfold recip Ideal.cmp Ideal.div
  by_cases hd : d = 0
  · simp [hd]
  · simp [hd]

/-- Entry `(p, u)` of the block stored for an adjacency band `a`, a table `tb`, feature rows `xb`, update weights `wu` and
    bias row `bb`. -/
theorem block_apply (a : Vec Ideal S200x10000 .f32) (tb : Vec Ideal S10000x256 .f32) (xb : Vec Ideal S200x128 .f32)
    (wu : Vec Ideal S256x128 .f32) (bb : Vec Ideal S1x128 .f32) (p : Fin 200) (u : Fin 128) :
    k0_pay2 (F := Ideal) a tb xb wu bb (ix2 p u)
      = max ((∑ k : Fin 128, xb (ix2 p k) * wu (ix2 (lo k) u)
              + ∑ k : Fin 128, ((∑ j : Fin 10000, a (ix2 p j) * tb (ix2 j (lo k)))
                    * recipOrZero (∑ j : Fin 10000, a (ix2 p j) * tb (ix2 j (hi 0)))) * wu (ix2 (hi k) u))
             + bb (ix2 (0 : Fin 1) u)) (Scalar.ofBits (F := Ideal) .f32 0x00000000#32) := by
  simp only [k0_pay2, recipOrZero, maximumf_apply, addf_apply, mulf_apply, broadcast_apply, select_apply, cmpf_apply, divf_apply,
    update_product, band_product, broadcastTo_1b_ab_apply, broadcastTo_col_apply, shapeCast_self,
    slice_features, slice_degree, slice_top, slice_bottom]

end Cert.KernelIdeal.Payload

end
-- ==== Proof.KernelValue.lean ====
/-
  The kernel's result array as one function of its argument arrays.
  The grid has 50 points; point t handles rows 200 t to 200 t + 199.  The carried scratch holds, from the first point
  on, the feature table of the node features and the transform weights (an induction over the points: the first point
  stores it, every later point leaves it alone).  So at every point the block written back is the layer's function of
  the arguments restricted to the point's 200 rows, and the 50 blocks tile the result array.
-/
import proofs.«170650_g50491635532113_cont_8to1_c_204_9_alg».proof.Proof.Gen.KernelIdeal.Value
import proofs.«170650_g50491635532113_cont_8to1_c_204_9_alg».proof.Proof.Pieces
import proofs.«170650_g50491635532113_cont_8to1_c_204_9_alg».proof.Proof.Payload
import proofs.«170650_g50491635532113_cont_8to1_c_204_9_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Pieces Cert.KernelIdeal.Payload Cert.Layer

variable (m : (ℓ : Loc nD τ sig) → Buf (Elt Ideal) ℓ) (ρ : Dev nD → PrngReg)

/-! ## Where each window's block sits, decided over the 50 points -/

/-- The adjacency band and the output block move down one block of 200 rows per point; the other four windows never
    move; the body's own row offset into the node features is 200 t. -/
theorem grid_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 200 * t.val ∧ k0_off1 (grid0.coords t) (1 : Fin 2) = 0 :=
  (by decide +kernel : ∀ t : Fin grid0.N, _)

/-- Row `p` of point `t`'s band is row `200 t + p` of the arrays. -/
def row (t : Fin cfg0.N) (p : Fin 200) : Fin 10000 :=
  ⟨200 * t.val + p.val, by have h := t.isLt; have hN : cfg0.N = 50 := N_0; have := p.isLt; omega⟩

/-! ## The windows' blocks read at coordinates -/

/-- The adjacency band at point `t`: rows `200 t` to `200 t + 199`, all columns. -/
theorem adj_block (c : Dev nD) (t : Fin cfg0.N) (p : Fin 200) (j : Fin 10000) :
    (iblk m c 0 t : Vec Ideal S200x10000 .f32) (ix2 p j) = V m c main_arg1 (ix2 (row t p) j) := by
  have f := grid_facts t
  show V m c main_arg1 (((cfg0.win 0).blk t).view.emb (ix2 p j)) = V m c main_arg1 (ix2 (row t p) j)
  congr 1
  funext a; apply Fin.ext
  match a with
  | ⟨0, _⟩ => show win0_0.index t (0 : Fin 2) * 200 + 1 * p.val = 200 * t.val + p.val; omega
  | ⟨1, _⟩ => show win0_0.index t (1 : Fin 2) * 10000 + 1 * j.val = j.val; omega

/-- The node features, the transform weights, the update weights and the bias row are staged whole at every point. -/
theorem feats_block (c : Dev nD) (t : Fin cfg0.N) : (iblk m c 1 t : Vec Ideal S10000x128 .f32) = V m c main_arg0 := by
  have f := grid_facts t
  funext y
  show V m c main_arg0 (((cfg0.win 1).blk t).view.emb y) = V m c main_arg0 y
  congr 1
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

theorem transform_block (c : Dev nD) (t : Fin cfg0.N) : (iblk m c 2 t : Vec Ideal S128x128 .f32) = V m c main_arg2 := by
  have f := grid_facts t
  funext y
  show V m c main_arg2 (((cfg0.win 2).blk t).view.emb y) = V m c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem update_block (c : Dev nD) (t : Fin cfg0.N) : (iblk m c 3 t : Vec Ideal S256x128 .f32) = V m c main_arg3 := by
  have f := grid_facts t
  funext y
  show V m c main_arg3 (((cfg0.win 3).blk t).view.emb y) = V m c main_arg3 y
  congr 1
  funext a; apply Fin.ext
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem bias_block (c : Dev nD) (t : Fin cfg0.N) : (iblk m c 4 t : Vec Ideal S1x128 .f32) = V m c main_call0_v0 := by
  have f := grid_facts t
  funext y
  show V m c main_call0_v0 (((cfg0.win 4).blk t).view.emb y) = V m c main_call0_v0 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The rows of the node features the body reads for itself at point `t`. -/
theorem band_apply (t : Fin cfg0.N) (x : Vec Ideal S10000x128 .f32) (p : Fin 200) (k : Fin 128) :
    band (grid0.coords t) x (ix2 p k) = x (ix2 (row t p) k) := by
  have f := grid_facts t
  show x ((Rect.unit (s := S10000x128) (k0_off1 (grid0.coords t)) S200x128.size (k0_off1_inb (grid0.coords t))).emb (ix2 p k)) = x (ix2 (row t p) k)
  congr 1
  funext a; apply Fin.ext
  match a with
  | ⟨0, _⟩ => show k0_off1 (grid0.coords t) (0 : Fin 2) + 1 * p.val = 200 * t.val + p.val; omega
  | ⟨1, _⟩ => show k0_off1 (grid0.coords t) (1 : Fin 2) + 1 * k.val = k.val; omega

/-- A vector of length `a` viewed as a `1 × a` row reads, at `(0, r)`, the vector at `r`. -/
theorem shapeCast_row_apply {α : Type} {a : ℕ} (v : (⟨1, ![a]⟩ : Shape).Idx → α) (h : (⟨1, ![a]⟩ : Shape).ShapeCasts ⟨2, ![1, a]⟩)
    (z : Fin 1) (r : Fin a) : shapeCast ⟨2, ![1, a]⟩ v h (ix2 z r) = v (ix1 r) :=
  shapeCast_apply v h _ _ (by
    have hz : z.val = 0 := by omega
    rw [Shape.rowMajor_val_one, Shape.rowMajor_val_two]
    show r.val = z.val * a + r.val
    rw [hz]; omega)

/-- The bias row the region finds is the bias vector reshaped by the host before the launch. -/
theorem bias_array (c : Dev nD) :
    (V m c main_call0_v0 : S1x128.Idx → EReal) = shapeCast S1x128 (m ((c : Thread nD τ).loc main_arg4)) shapeCasts_S128_S1x128 := by
  dsimp only [Gen.V, Gen.hostOps0]; after_results; rfl

theorem bias_entry (c : Dev nD) (u : Fin 128) :
    (V m c main_call0_v0 : S1x128.Idx → EReal) (ix2 (0 : Fin 1) u) = (m ((c : Thread nD τ).loc main_arg4)) (ix1 u) := by
  rw [bias_array]; exact shapeCast_row_apply _ _ _ _

/-! ## The carried scratch, and what every point leaves -/

/-- The feature table of the node features and the transform weights as the region finds them. -/
abbrev tab (c : Dev nD) : Vec Ideal S10000x256 .f32 :=
  k0_pay1 (V m c main_arg0 : Vec Ideal S10000x128 .f32) (V m c main_arg2 : Vec Ideal S128x128 .f32)

/-- After every point the scratch holds the feature table, and the output's staging buffer holds the block computed from
    it: by induction on the point — the first point stores the table and uses it, a later point finds it there. -/
theorem outsAt_eq (c : Dev nD) : ∀ (n : ℕ) (hn : n < cfg0.N), outsAt0 m c n hn
    = (k0_pay2 (iblk m c 0 ⟨n, hn⟩) (tab m c) (band (grid0.coords ⟨n, hn⟩) (V m c main_arg0 : Vec Ideal S10000x128 .f32))
        (iblk m c 3 ⟨n, hn⟩) (iblk m c 4 ⟨n, hn⟩), tab m c)
  | 0, hn => by
    rw [outsAt0_A m c ⟨0, hn⟩ rfl, out_first, scratch_first, feats_block, transform_block]
  | n + 1, hn => by
    have hN : cfg0.N = 50 := N_0
    have hB : ¬(⟨n + 1, hn⟩ : Fin cfg0.N).val % 50 = 0 := by dsimp only; omega
    rw [outsAt0_B m c ⟨n + 1, hn⟩ hB, out_later]
    show (k0_pay2 _ (outsAt0 m c n _).2 _ _ _, (outsAt0 m c n _).2) = _
    rw [outsAt_eq c n, feats_block]

/-! ## From blocks to the array -/

/-- What point `t` writes back is block `t` of the layer's function of the argument arrays. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5, outsAt_eq]
  have f := grid_facts t
  funext y
  obtain ⟨p, u, rfl⟩ : ∃ (p : Fin 200) (u : Fin 128), y = ix2 p u := ⟨y 0, y 1, eq_ix2 y⟩
  have hemb : ((cfg0.win 5).blk t).view.emb (ix2 p u) = ix2 (row t p) u := by
    funext a; apply Fin.ext
    match a with
    | ⟨0, _⟩ => show win0_5.index t (0 : Fin 2) * 200 + 1 * p.val = 200 * t.val + p.val; omega
    | ⟨1, _⟩ => show win0_5.index t (1 : Fin 2) * 128 + 1 * u.val = u.val; omega
  show k0_pay2 (iblk m c 0 t) (tab m c) (band (grid0.coords t) (V m c main_arg0 : Vec Ideal S10000x128 .f32)) (iblk m c 3 t) (iblk m c 4 t) (ix2 p u)
      = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p u))
  rw [hemb, G_apply, block_apply, update_block, bias_block, bias_entry]
  unfold out agg deg feat
  simp only [adj_block, table_features, table_ones, mul_one, recipOrZero_eq]
  rw [V_main_arg0 m c, V_main_arg1 m c, V_main_arg2 m c, V_main_arg3 m c]
  have hb : ∀ k : Fin 128, band (F := Ideal) (grid0.coords t) (m ((c : Thread nD τ).loc main_arg0)) (ix2 p k) = (m ((c : Thread nD τ).loc main_arg0)) (ix2 (row t p) k) :=
    fun k => band_apply t _ p k
  simp only [hb, Ideal.ofBits_def, Ideal.ofBits_zero_f32] <;> rfl

/-- An index of the result array is in point `t`'s block iff each coordinate is in the block's range on its axis. -/
theorem mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v0).slice (win0_5.rect t)).set ↔ _
  rw [View.set_slice_whole, Rect.mem_set_unit]
  exact Iff.rfl

/-- Every entry of the result array is written by the point that owns its row: point `row / 200`. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := N_0
  have ht : (i 0).val / 200 < cfg0.N := by rw [hN]; omega
  have f := grid_facts ⟨(i 0).val / 200, ht⟩
  refine ⟨⟨(i 0).val / 200, ht⟩, flush0_5 _, ?_⟩
  rw [mem_blk]
  intro a
  match a with
  | ⟨0, _⟩ => show win0_5.index ⟨(i 0).val / 200, ht⟩ (0 : Fin 2) * 200 ≤ (i 0).val ∧ (i 0).val < win0_5.index ⟨(i 0).val / 200, ht⟩ (0 : Fin 2) * 200 + 200
              dsimp only at f; omega
  | ⟨1, _⟩ => show win0_5.index ⟨(i 0).val / 200, ht⟩ (1 : Fin 2) * 128 ≤ (i 1).val ∧ (i 1).val < win0_5.index ⟨(i 0).val / 200, ht⟩ (1 : Fin 2) * 128 + 128
              dsimp only at f; omega

/-- The result array after the run. -/
theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (G (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- The run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.Algebra.lean ====
/-
  The arithmetic that joins the two arrangements of the layer, on the extended reals.
  For real entries every intermediate value is a real, so: a finite sum of reals is the real sum; the reciprocal of a
  real degree is the real reciprocal (zero at zero) whether it is spelt  if d = 0 then 0 else 1/d  or  d ^ (-1)
  guarded by "is it infinite"; a common real factor moves across a finite sum of products of reals; and a sum over
  256 indices is the sum over its first and its second 128.  Nothing here knows a program.
-/
import proofs.«170650_g50491635532113_cont_8to1_c_204_9_alg».proof.Proof.Spec
import Idealize.ShloMosaic.PureOps.Ideal.Laws
import Mathlib.Analysis.SpecialFunctions.Pow.Real

noncomputable section

open scoped BigOperators

namespace Cert.Layer

open Idealize.ShloMosaic Idealize.ShloMosaic.ValueIdx

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A common real factor moves across a finite sum of products of reals. -/
theorem sum_scaled {ι : Type} [Fintype ι] (f g : ι → ℝ) (e : ℝ) :
    ∑ j, ((f j : EReal) * (e : EReal)) * (g j : EReal) = (∑ j, (f j : EReal) * (g j : EReal)) * (e : EReal) := by
  have h1 : ∀ j, ((f j : EReal) * (e : EReal)) * (g j : EReal) = ((f j * e * g j : ℝ) : EReal) := fun j => by
    rw [EReal.coe_mul, EReal.coe_mul]
  have h2 : ∀ j, (f j : EReal) * (g j : EReal) = ((f j * g j : ℝ) : EReal) := fun j => (EReal.coe_mul _ _).symm
  simp only [h1, h2]
  rw [← coe_sum, ← coe_sum, ← EReal.coe_mul, Finset.sum_mul]
  congr 1
  exact Finset.sum_congr rfl fun j _ => by ring

/-- The transformed features of real arrays are real. -/
theorem feat_coe (x : (⟨2, ![10000, 128]⟩ : Shape).Idx → ℝ) (w : (⟨2, ![128, 128]⟩ : Shape).Idx → ℝ) (j : Fin 10000) (k : Fin 128) :
    feat (fun i => (x i : EReal)) (fun i => (w i : EReal)) j k = ((∑ l : Fin 128, x (ix2 j l) * w (ix2 l k) : ℝ) : EReal) := by
  unfold feat
  rw [coe_sum]
  exact Finset.sum_congr rfl fun l _ => (EReal.coe_mul _ _).symm

/-- The degree of a real adjacency row is real. -/
theorem deg_coe (a : (⟨2, ![10000, 10000]⟩ : Shape).Idx → ℝ) (r : Fin 10000) :
    deg (fun i => (a i : EReal)) r = ((∑ j : Fin 10000, a (ix2 r j) : ℝ) : EReal) := by
  unfold deg
  rw [coe_sum]

/-- The reciprocal of a real, zero sent to zero, is the real reciprocal. -/
theorem recip_coe (d : ℝ) : recip (d : EReal) = ((d⁻¹ : ℝ) : EReal) := by
  unfold recip
  by_cases h : d = 0
  · subst h; simp
  · rw [if_neg (by exact_mod_cast h), EReal.coe_inv]

/-- The aggregate of real arrays scaled by a real, the factor applied to each adjacency entry first. -/
theorem agg_scaled (x : (⟨2, ![10000, 128]⟩ : Shape).Idx → ℝ) (a : (⟨2, ![10000, 10000]⟩ : Shape).Idx → ℝ)
    (w : (⟨2, ![128, 128]⟩ : Shape).Idx → ℝ) (r : Fin 10000) (k : Fin 128) (e : ℝ) :
    ∑ j : Fin 10000, ((a (ix2 r j) : EReal) * (e : EReal)) * feat (fun i => (x i : EReal)) (fun i => (w i : EReal)) j k
      = agg (fun i => (x i : EReal)) (fun i => (a i : EReal)) (fun i => (w i : EReal)) r k * (e : EReal) := by
  unfold agg
  simp only [feat_coe]
  exact sum_scaled (fun j => a (ix2 r j)) (fun j => ∑ l : Fin 128, x (ix2 j l) * w (ix2 l k)) e

/-- The float word for minus one is minus one. -/
theorem ofBits_neg_one : Ideal.ofBits .f32 0xBF800000#32 = ((-1 : ℝ) : EReal) := by
  simp [Ideal.ofBits, Ideal.ieee]
  first
    | (rw [← EReal.coe_mul]; norm_num)
    | (norm_cast; norm_num)
    | norm_num

/-- The float word for plus infinity is the top element. -/
theorem ofBits_inf : Ideal.ofBits .f32 0x7F800000#32 = ⊤ := by
  simp [Ideal.ofBits, Ideal.ieee]

/-- A real to the power minus one is its real reciprocal (zero at zero). -/
theorem pow_neg_one_coe (d : ℝ) : Ideal.pow (d : EReal) (Ideal.ofBits .f32 0xBF800000#32) = ((d⁻¹ : ℝ) : EReal) := by
  rw [ofBits_neg_one]
  show ((Real.rpow d (-1) : ℝ) : EReal) = _
  rw [show Real.rpow d (-1) = d ^ (-1 : ℝ) from rfl, Real.rpow_neg_one]

/-- The magnitude of a real is not plus infinity. -/
theorem abs_coe_ne_top (y : ℝ) : max (y : EReal) (-(y : EReal)) ≠ ⊤ := by
  rcases max_choice (y : EReal) (-(y : EReal)) with h | h
  · rw [h]; exact EReal.coe_ne_top _
  · rw [h, ← EReal.coe_neg]; exact EReal.coe_ne_top _

/-- A sum over 256 indices is the sum over the first 128 and the second 128. -/
theorem sum_256 (f : Fin 256 → EReal) : ∑ l : Fin 256, f l = ∑ k : Fin 128, f (lo k) + ∑ k : Fin 128, f (hi k) := by
  show ∑ l : Fin (128 + 128), f l = _
  rw [Fin.sum_univ_add]
  congr 1 <;> exact Finset.sum_congr rfl fun k _ => congrArg f (Fin.ext rfl)

end Cert.Layer

end
-- ==== Proof.RefIsSpec.lean ====
/-
  The reference program's result, read one operation at a time, is the layer's function of its arguments when the
  node features, the adjacency and the transform weights have real entries.
  The degree is then a real d; the reference's  d ^ (-1), replaced by zero where it is infinite,  is the real d⁻¹
  (zero at d = 0: a real is never infinite); that factor, applied to every adjacency entry before the product with
  the transformed features, comes out of the sum over the neighbours; and the product of the joined array
  [features | aggregate] with the update weights splits into the features' product with the upper half of the weights
  and the aggregate's product with the lower half.
-/
import proofs.«170650_g50491635532113_cont_8to1_c_204_9_alg».proof.Proof.Gen.ReferenceIdeal.Read
import proofs.«170650_g50491635532113_cont_8to1_c_204_9_alg».proof.Proof.Algebra
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.Whole

open Cert.ReferenceIdeal Cert.ReferenceIdeal.Read Cert.Layer

/-- A real array read as an array of extended reals. -/
abbrev up {s : Shape} (f : s.Idx → ℝ) : s.Idx → EReal := fun i => (f i : EReal)

variable (x : S10000x128.Idx → ℝ) (a : S10000x10000.Idx → ℝ) (w : S128x128.Idx → ℝ)
  (Wu : S256x128.Idx → EReal) (b : S128.Idx → EReal)

/-! ## The operations' operand indices, by coordinates -/

theorem e_v1 (r k : Fin 10000) : idx_main_v1 (ix1 r) k = ix2 r k :=
  funext fun ax => Fin.ext (by match ax with | ⟨0, _⟩ => rfl | ⟨1, _⟩ => rfl)
theorem e_v0l (j : Fin 10000) (k l : Fin 128) : lidx_main_v0 (ix2 j k) l = ix2 j l :=
  funext fun ax => Fin.ext (by match ax with | ⟨0, _⟩ => rfl | ⟨1, _⟩ => rfl)
theorem e_v0r (j : Fin 10000) (k l : Fin 128) : ridx_main_v0 (ix2 j k) l = ix2 l k :=
  funext fun ax => Fin.ext (by match ax with | ⟨0, _⟩ => rfl | ⟨1, _⟩ => rfl)
theorem e_v9l (r : Fin 10000) (k : Fin 128) (j : Fin 10000) : lidx_main_v9 (ix2 r k) j = ix2 r j :=
  funext fun ax => Fin.ext (by match ax with | ⟨0, _⟩ => rfl | ⟨1, _⟩ => rfl)
theorem e_v9r (r : Fin 10000) (k : Fin 128) (j : Fin 10000) : ridx_main_v9 (ix2 r k) j = ix2 j k :=
  funext fun ax => Fin.ext (by match ax with | ⟨0, _⟩ => rfl | ⟨1, _⟩ => rfl)
theorem e_v11l (r : Fin 10000) (u : Fin 128) (l : Fin 256) : lidx_main_v11 (ix2 r u) l = ix2 r l :=
  funext fun ax => Fin.ext (by match ax with | ⟨0, _⟩ => rfl | ⟨1, _⟩ => rfl)
theorem e_v11r (r : Fin 10000) (u : Fin 128) (l : Fin 256) : ridx_main_v11 (ix2 r u) l = ix2 l u :=
  funext fun ax => Fin.ext (by match ax with | ⟨0, _⟩ => rfl | ⟨1, _⟩ => rfl)
theorem e_v7 (r j : Fin 10000) : idx_main_v6 (idx_main_v7 (ix2 r j)) = ix1 r :=
  funext fun ax => Fin.ext (by match ax with | ⟨0, _⟩ => rfl)
theorem e_v13 (r : Fin 10000) (u : Fin 128) : idx_main_v12 (idx_main_v13 (ix2 r u)) = ix1 u :=
  funext fun ax => Fin.ext (by match ax with | ⟨0, _⟩ => rfl)

/-! ## The stages -/

/-- The first product is the transformed features. -/
theorem ref_feat (j : Fin 10000) (k : Fin 128) :
    val_main_v0 (F := Ideal) (up x) (up w) (ix2 j k) = feat (up x) (up w) j k := by
  rw [val_main_v0_apply]
  simp only [e_v0l, e_v0r]
  rfl

/-- The row sum of the adjacency is the degree. -/
theorem ref_deg (r : Fin 10000) : val_main_v1 (F := Ideal) (up a) (ix1 r) = deg (up a) r := by
  rw [val_main_v1_apply, val_main_cst_apply]
  simp only [e_v1, Ideal.ofBits_def, Ideal.ofBits_zero_f32, zero_add]
  rfl

/-- The degree to the power minus one, zero where that is infinite, is the reciprocal with zero sent to zero. -/
theorem ref_recip (r : Fin 10000) : val_main_v5 (F := Ideal) (up a) (ix1 r) = recip (deg (up a) r) := by
  simp only [val_main_v5_apply, val_main_v4_apply, val_main_call0_v0_apply, val_main_v3_apply, ref_deg, val_main_v2_apply,
    val_main_cst_0_apply, val_main_call0_v1_apply, val_main_call0_cst_apply, val_main_call1_v1_apply, val_main_call1_v0_apply,
    val_main_cst_1_apply, deg_coe, recip_coe]
  show Scalar.select (Ideal.cmp .oeq (max (Ideal.pow _ (Ideal.ofBits .f32 0xBF800000#32)) (-(Ideal.pow _ (Ideal.ofBits .f32 0xBF800000#32))))
      (Ideal.ofBits .f32 0x7F800000#32)) (Ideal.ofBits .f32 0x00000000#32) (Ideal.pow _ (Ideal.ofBits .f32 0xBF800000#32)) = _
  rw [pow_neg_one_coe, ofBits_inf]
  unfold Ideal.cmp Scalar.select
  simp [abs_coe_ne_top]

/-- An adjacency entry times its row's reciprocal degree. -/
theorem ref_scaled (r j : Fin 10000) :
    val_main_v8 (F := Ideal) (up a) (ix2 r j) = (a (ix2 r j) : EReal) * (((∑ j' : Fin 10000, a (ix2 r j'))⁻¹ : ℝ) : EReal) := by
  rw [val_main_v8_apply, val_main_v7_apply, val_main_v6_apply, e_v7, ref_recip, deg_coe, recip_coe]
  rfl

/-- The second product is the aggregate times the reciprocal degree. -/
theorem ref_agg (r : Fin 10000) (k : Fin 128) :
    val_main_v9 (F := Ideal) (up x) (up a) (up w) (ix2 r k) = agg (up x) (up a) (up w) r k * recip (deg (up a) r) := by
  rw [val_main_v9_apply]
  simp only [e_v9l, e_v9r, ref_scaled, ref_feat]
  rw [deg_coe, recip_coe]
  exact agg_scaled x a w r k _

/-- The joined array's left half is the node features, -/
theorem cat_left (r : Fin 10000) (k : Fin 128) :
    val_main_v10 (F := Ideal) (up x) (up a) (up w) (ix2 r (lo k)) = (x (ix2 r k) : EReal) := by
  unfold val_main_v10
  exact concatenate_pair_apply_left (t := S10000x256) (s₁ := S10000x128) (s₂ := S10000x128) (1 : Fin 2) _ _ _ (ix2 r (lo k)) rfl (ix2 r k)
    (fun bx => by match bx with | ⟨0, _⟩ => rfl | ⟨1, _⟩ => rfl)

/-- and its right half is the second product. -/
theorem cat_right (r : Fin 10000) (k : Fin 128) :
    val_main_v10 (F := Ideal) (up x) (up a) (up w) (ix2 r (hi k)) = val_main_v9 (F := Ideal) (up x) (up a) (up w) (ix2 r k) := by
  unfold val_main_v10
  exact concatenate_pair_apply_right (t := S10000x256) (s₁ := S10000x128) (s₂ := S10000x128) (1 : Fin 2) _ _ _ (ix2 r (hi k)) rfl rfl (ix2 r k)
    (fun bx hb => by match bx with | ⟨0, _⟩ => rfl | ⟨1, _⟩ => exact absurd rfl hb) (by show k.val + 128 = 128 + k.val; omega)

/-- One entry of the reference's result. -/
theorem ref_out (r : Fin 10000) (u : Fin 128) :
    val_main_v15 (F := Ideal) (up x) (up a) (up w) Wu b (ix2 r u) = out (up x) (up a) (up w) Wu b r u := by
  rw [val_main_v15_apply, val_main_v14_apply, val_main_v11_apply, val_main_v13_apply, val_main_v12_apply, e_v13,
    val_main_call2_v0_apply, val_main_call2_cst_apply, sum_256]
  simp only [e_v11l, e_v11r, cat_left, cat_right, ref_agg, Ideal.ofBits_def, Ideal.ofBits_zero_f32]
  rfl

/-- The reference's result array is the layer's function of its arguments. -/
theorem ref_eq_G : val_main_v15 (F := Ideal) (up x) (up a) (up w) Wu b = G (up x) (up a) (up w) Wu b := by
  funext i
  obtain ⟨r, u, rfl⟩ : ∃ (r : Fin 10000) (u : Fin 128), i = ix2 r u := ⟨i 0, i 1, eq_ix2 i⟩
  rw [ref_out, G_apply]

end Cert.ReferenceIdeal.Whole

end
-- ==== Proof.Finite.lean ====
/-
  What the precondition gives.  It is the conjunction, over the five float arguments, of "every entry's magnitude is
  below plus infinity".  On the extended reals an entry whose magnitude is below plus infinity is neither infinity, so
  it is a real number.  Used here for the node features, the adjacency and the transform weights — the arrays whose
  entries meet in the sums the reciprocal degree has to move across.
-/
import proofs.«170650_g50491635532113_cont_8to1_c_204_9_alg».proof.Pre_finite_inputs
import proofs.«170650_g50491635532113_cont_8to1_c_204_9_alg».proof.Proof.Algebra
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.Finite

open Cert.Pre_finite_inputs Cert.Layer

instance : Subsingleton S_.Idx := ⟨fun a b => funext fun d => d.elim0⟩

/-- An extended real whose magnitude is below plus infinity is a real. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  have hlt : max x (-x) < ⊤ := by
    by_contra hn
    simp [hn] at h
  induction x using EReal.rec with
  | bot => simp at hlt
  | coe r => exact ⟨r, rfl⟩
  | top => simp at hlt

variable [Facts]

/-- Under the precondition the node features, the adjacency and the transform weights have real entries. -/
theorem reals_of_pre (X : FVec Ideal S10000x128 .f32) (A : FVec Ideal S10000x10000 .f32) (Wt : FVec Ideal S128x128 .f32)
    (Wu : FVec Ideal S256x128 .f32) (b : FVec Ideal S128 .f32)
    (h : fn (F := Ideal) X A Wt Wu b = fun _ => 1#1) :
    (∀ i, ∃ r : ℝ, X i = (r : EReal)) ∧ (∀ i, ∃ r : ℝ, A i = (r : EReal)) ∧ (∀ i, ∃ r : ℝ, Wt i = (r : EReal)) := by
  have h0 := congrFun h ValueIdx.ix0
  dsimp only [fn, fn_part1] at h0
  change IntOp.andi _ _ = 1#1 at h0
  obtain ⟨h18, -⟩ := IntOp.andi_eq_one.mp h0
  change IntOp.andi _ _ = 1#1 at h18
  obtain ⟨h13, -⟩ := IntOp.andi_eq_one.mp h18
  change IntOp.andi _ _ = 1#1 at h13
  obtain ⟨h8, h12⟩ := IntOp.andi_eq_one.mp h13
  change IntOp.andi _ _ = 1#1 at h8
  obtain ⟨h3, h7⟩ := IntOp.andi_eq_one.mp h8
  refine ⟨fun i => ?_, fun i => ?_, fun i => ?_⟩
  · exact real_of_abs_lt _ (Host.reduce_andi_all _ _ _ _ _ h3 i)
  · exact real_of_abs_lt _ (Host.reduce_andi_all _ _ _ _ _ h7 i)
  · exact real_of_abs_lt _ (Host.reduce_andi_all _ _ _ _ _ h12 i)

end Cert.Finite

end
-- ==== Proof.lean ====
/-
  One graph-network layer on 10000 nodes with 128 features: the kernel streams the dense adjacency once, in 50 bands
  of 200 rows, against a feature table kept in a scratch buffer, and is claimed equal, on the extended reals and for
  finite inputs, to the plain formulation
      relu (concat [X, (A ∘ dinv) · (X · Wt)] · Wu + b),   dinv r = (Σ_j A r j) ^ (-1), zero where that is infinite.

  Both programs compute, entry by entry, the function `Cert.Layer.G` of the five argument arrays (Proof/Spec.lean):
    * the kernel (Proof/Pieces.lean, Proof/Payload.lean, Proof/KernelValue.lean): the scratch holds the table
      [X · Wt | 1 | 0] from the first grid point on, so one product of a band with the table gives both the aggregate
      Σ_j A r j · (X · Wt) j k and the degree Σ_j A r j · 1; the aggregate is scaled by the reciprocal degree (zero at
      zero) and the update is computed as X · Wu_top + scaled · Wu_bottom + b, then clipped at zero;
    * the reference (Proof/RefIsSpec.lean, over Proof/Algebra.lean): for real entries the degree is a real d, its
      guarded power d ^ (-1) is the real reciprocal, the factor comes out of the sum over the neighbours, and the
      product of the joined array with Wu splits into the two halves.
  The precondition is used exactly there (Proof/Finite.lean): on the extended reals a common factor does not move
  across a sum in general, and the degree of a row with an infinite entry has no real reciprocal.
  The idealization rewrote nothing, so the kernel and its idealization are the same text and `preserves` is trivial;
  the three frames are the generated ones (the reference's is its generated run with the result dropped).
-/
import proofs.«170650_g50491635532113_cont_8to1_c_204_9_alg».proof.Defs
import proofs.«170650_g50491635532113_cont_8to1_c_204_9_alg».proof.Proof.Gen.Kernel
import proofs.«170650_g50491635532113_cont_8to1_c_204_9_alg».proof.Proof.Gen.Kernel.Skeleton
import proofs.«170650_g50491635532113_cont_8to1_c_204_9_alg».proof.Proof.Gen.Kernel.Launch
import proofs.«170650_g50491635532113_cont_8to1_c_204_9_alg».proof.Proof.Gen.Kernel.Points
import proofs.«170650_g50491635532113_cont_8to1_c_204_9_alg».proof.Proof.Gen.Kernel.Frame
import proofs.«170650_g50491635532113_cont_8to1_c_204_9_alg».proof.Proof.Gen.KernelIdeal
import proofs.«170650_g50491635532113_cont_8to1_c_204_9_alg».proof.Proof.Gen.KernelIdeal.Skeleton
import proofs.«170650_g50491635532113_cont_8to1_c_204_9_alg».proof.Proof.Gen.KernelIdeal.Launch
import proofs.«170650_g50491635532113_cont_8to1_c_204_9_alg».proof.Proof.Gen.KernelIdeal.Points
import proofs.«170650_g50491635532113_cont_8to1_c_204_9_alg».proof.Proof.Gen.KernelIdeal.Frame
import proofs.«170650_g50491635532113_cont_8to1_c_204_9_alg».proof.Proof.Gen.ReferenceIdeal
import proofs.«170650_g50491635532113_cont_8to1_c_204_9_alg».proof.Proof.Gen.Pre_finite_inputs
import proofs.«170650_g50491635532113_cont_8to1_c_204_9_alg».proof.Proof.Gen.KernelIdeal.Value
import proofs.«170650_g50491635532113_cont_8to1_c_204_9_alg».proof.Proof.Gen.ReferenceIdeal.Run
import proofs.«170650_g50491635532113_cont_8to1_c_204_9_alg».proof.Proof.Gen.ReferenceIdeal.Read
import proofs.«170650_g50491635532113_cont_8to1_c_204_9_alg».proof.Proof.KernelValue
import proofs.«170650_g50491635532113_cont_8to1_c_204_9_alg».proof.Proof.RefIsSpec
import proofs.«170650_g50491635532113_cont_8to1_c_204_9_alg».proof.Proof.Finite
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the five arguments, the kernel's result array and the reference's are the same array:
    the layer's function of the arguments, the kernel's for any inputs, the reference's because the inputs are finite. -/
theorem algebraic : Cert.algebraic_KernelIdeal_ReferenceIdeal := by
  intro m ρ m' ρ' hpre hagree
  refine ⟨fun c => Cert.Layer.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v15_eq, (hagree c).1, (hagree c).2.1, (hagree c).2.2.1, (hagree c).2.2.2.1, (hagree c).2.2.2.2]
  obtain ⟨hX, hA, hW⟩ := Cert.Finite.reals_of_pre _ _ _ _ _ (hpre c)
  choose x hx using hX
  choose a ha using hA
  choose w hw using hW
  rw [show (m ((c.tc : Thread Cert.KernelIdeal.nD Cert.KernelIdeal.τ).loc Cert.KernelIdeal.main_arg0)) = Cert.ReferenceIdeal.Whole.up x from funext hx,
    show (m ((c.tc : Thread Cert.KernelIdeal.nD Cert.KernelIdeal.τ).loc Cert.KernelIdeal.main_arg1)) = Cert.ReferenceIdeal.Whole.up a from funext ha,
    show (m ((c.tc : Thread Cert.KernelIdeal.nD Cert.KernelIdeal.τ).loc Cert.KernelIdeal.main_arg2)) = Cert.ReferenceIdeal.Whole.up w from funext hw]
  exact Cert.ReferenceIdeal.Whole.ref_eq_G x a w _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
